-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768x115 : Shape := ⟨2, ![768, 115]⟩
abbrev S115 : Shape := ⟨1, ![115]⟩
abbrev S768x478 : Shape := ⟨2, ![768, 478]⟩
abbrev S478 : Shape := ⟨1, ![478]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x115 : S_.BroadcastsInDim S768x115 (![] : Fin 0 → Fin S768x115.rank)
  reducesTo_S768x115_S_d0_1 : S768x115.ReducesTo [0, 1] S_
  bcast_S_S115 : S_.BroadcastsInDim S115 (![] : Fin 0 → Fin S115.rank)
  reducesTo_S115_S_d0 : S115.ReducesTo [0] S_
  bcast_S_S768x478 : S_.BroadcastsInDim S768x478 (![] : Fin 0 → Fin S768x478.rank)
  reducesTo_S768x478_S_d0_1 : S768x478.ReducesTo [0, 1] S_
  bcast_S_S478 : S_.BroadcastsInDim S478 (![] : Fin 0 → Fin S478.rank)
  reducesTo_S478_S_d0 : S478.ReducesTo [0] S_

variable [Facts]

def fn_part1 {F : FTy → Type} [FloatOps F] (main_arg4 : FVec F S478 .f32) (main_v13 : IVec S_ 1) (main_v16 : IVec S768x478 1) : IVec S_ 1 :=
  let main_c_5 : IVec S_ 1 := constantI S_ 1 1#1
  let main_v17 : IVec S_ 1 := (fun x v => Host.reduce IntOp.andi x v reducesTo_S768x478_S_d0_1 h_S_) main_v16 main_c_5
  let main_v18 : IVec S_ 1 := andi main_v13 main_v17
  let main_v19 : FVec F S478 .f32 := Host.absf main_arg4
  let main_cst_6 : FVec F S_ .f32 := constant S_ .f32 0x7F800000#32
  let main_v20 : FVec F S478 .f32 := broadcastInDim S478 ![] bcast_S_S478 main_cst_6
  let main_v21 : IVec S478 1 := cmpf .olt main_v19 main_v20
  let main_c_7 : IVec S_ 1 := constantI S_ 1 1#1
  let main_v22 : IVec S_ 1 := (fun x v => Host.reduce IntOp.andi x v reducesTo_S478_S_d0 h_S_) main_v21 main_c_7
  let main_v23 : IVec S_ 1 := andi main_v18 main_v22
  main_v23

def fn {F : FTy → Type} [FloatOps F] (main_arg0 : FVec F S16384x768 .f32) (main_arg1 : FVec F S768x115 .f32) (main_arg2 : FVec F S115 .f32) (main_arg3 : FVec F S768x478 .f32) (main_arg4 : FVec F S478 .f32) (main_arg5 : IVec S115 1) (main_arg6 : IVec S478 1) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x115 .f32 := Host.absf main_arg1
  let main_cst_0 : FVec F S_ .f32 := constant S_ .f32 0x7F800000#32
  let main_v5 : FVec F S768x115 .f32 := broadcastInDim S768x115 ![] bcast_S_S768x115 main_cst_0
  let main_v6 : IVec S768x115 1 := cmpf .olt main_v4 main_v5
  let main_c_1 : IVec S_ 1 := constantI S_ 1 1#1
  let main_v7 : IVec S_ 1 := (fun x v => Host.reduce IntOp.andi x v reducesTo_S768x115_S_d0_1 h_S_) main_v6 main_c_1
  let main_v8 : IVec S_ 1 := andi main_v3 main_v7
  let main_v9 : FVec F S115 .f32 := Host.absf main_arg2
  let main_cst_2 : FVec F S_ .f32 := constant S_ .f32 0x7F800000#32
  let main_v10 : FVec F S115 .f32 := broadcastInDim S115 ![] bcast_S_S115 main_cst_2
  let main_v11 : IVec S115 1 := cmpf .olt main_v9 main_v10
  let main_c_3 : IVec S_ 1 := constantI S_ 1 1#1
  let main_v12 : IVec S_ 1 := (fun x v => Host.reduce IntOp.andi x v reducesTo_S115_S_d0 h_S_) main_v11 main_c_3
  let main_v13 : IVec S_ 1 := andi main_v8 main_v12
  let main_v14 : FVec F S768x478 .f32 := Host.absf main_arg3
  let main_cst_4 : FVec F S_ .f32 := constant S_ .f32 0x7F800000#32
  let main_v15 : FVec F S768x478 .f32 := broadcastInDim S768x478 ![] bcast_S_S768x478 main_cst_4
  let main_v16 : IVec S768x478 1 := cmpf .olt main_v14 main_v15
  fn_part1 (F := F) main_arg4 main_v13 main_v16
-- ==== Kernel.lean ====
abbrev S16384x768 : Shape := ⟨2, ![16384, 768]⟩
abbrev S768x115 : Shape := ⟨2, ![768, 115]⟩
abbrev S115 : Shape := ⟨1, ![115]⟩
abbrev S768x478 : Shape := ⟨2, ![768, 478]⟩
abbrev S478 : Shape := ⟨1, ![478]⟩
abbrev S115x768 : Shape := ⟨2, ![115, 768]⟩
abbrev S478x768 : Shape := ⟨2, ![478, 768]⟩
abbrev S1x115 : Shape := ⟨2, ![1, 115]⟩
abbrev S1x478 : Shape := ⟨2, ![1, 478]⟩
abbrev S593 : Shape := ⟨1, ![593]⟩
abbrev S115x16384 : Shape := ⟨2, ![115, 16384]⟩
abbrev S478x16384 : Shape := ⟨2, ![478, 16384]⟩
abbrev S16384x115 : Shape := ⟨2, ![16384, 115]⟩
abbrev S16384x478 : Shape := ⟨2, ![16384, 478]⟩
abbrev S4096x768 : Shape := ⟨2, ![4096, 768]⟩
abbrev S115x4096 : Shape := ⟨2, ![115, 4096]⟩
abbrev S478x4096 : Shape := ⟨2, ![478, 4096]⟩
abbrev S1x593 : Shape := ⟨2, ![1, 593]⟩
abbrev S593x1 : Shape := ⟨2, ![593, 1]⟩
abbrev S478x1 : Shape := ⟨2, ![478, 1]⟩
abbrev S115x1 : Shape := ⟨2, ![115, 1]⟩

abbrev nBuf : Space → Nat
  | .hbm => 17
  | .vmem => 11
  | .smem => 0
  | _ => 0

abbrev bufTy : (tb : Table) → Fin (tcTables nBuf tb) → BufTy
  | .hbm, ⟨0, _⟩ => ⟨S16384x768, .f32⟩
  | .hbm, ⟨1, _⟩ => ⟨S768x115, .f32⟩
  | .hbm, ⟨2, _⟩ => ⟨S115, .f32⟩
  | .hbm, ⟨3, _⟩ => ⟨S768x478, .f32⟩
  | .hbm, ⟨4, _⟩ => ⟨S478, .f32⟩
  | .hbm, ⟨5, _⟩ => ⟨S115, .i1⟩
  | .hbm, ⟨6, _⟩ => ⟨S478, .i1⟩
  | .hbm, ⟨7, _⟩ => ⟨S115x768, .f32⟩
  | .hbm, ⟨8, _⟩ => ⟨S478x768, .f32⟩
  | .hbm, ⟨9, _⟩ => ⟨S1x115, .f32⟩
  | .hbm, ⟨10, _⟩ => ⟨S1x478, .f32⟩
  | .hbm, ⟨11, _⟩ => ⟨S593, .i1⟩
  | .hbm, ⟨12, _⟩ => ⟨S593, .f32⟩
  | .hbm, ⟨13, _⟩ => ⟨S115x16384, .f32⟩
  | .hbm, ⟨14, _⟩ => ⟨S478x16384, .f32⟩
  | .hbm, ⟨15, _⟩ => ⟨S16384x115, .f32⟩
  | .hbm, ⟨16, _⟩ => ⟨S16384x478, .f32⟩
  | .local _ .vmem, ⟨0, _⟩ => ⟨S4096x768, .f32⟩
  | .local _ .vmem, ⟨1, _⟩ => ⟨S4096x768, .f32⟩
  | .local _ .vmem, ⟨2, _⟩ => ⟨S115x768, .f32⟩
  | .local _ .vmem, ⟨3, _⟩ => ⟨S478x768, .f32⟩
  | .local _ .vmem, ⟨4, _⟩ => ⟨S1x115, .f32⟩
  | .local _ .vmem, ⟨5, _⟩ => ⟨S1x478, .f32⟩
  | .local _ .vmem, ⟨6, _⟩ => ⟨S593, .f32⟩
  | .local _ .vmem, ⟨7, _⟩ => ⟨S115x4096, .f32⟩
  | .local _ .vmem, ⟨8, _⟩ => ⟨S115x4096, .f32⟩
  | .local _ .vmem, ⟨9, _⟩ => ⟨S478x4096, .f32⟩
  | .local _ .vmem, ⟨10, _⟩ => ⟨S478x4096, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6_0 : Ref sig .tc := ⟨.hbm, 13, rfl⟩
abbrev main_call0_v6_1 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S115x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S478x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x115 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x478 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S593 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S115x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S478x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S768x115_S115x768_1_0 : S768x115.Transposes [1, 0] S115x768
  transposes_S768x478_S478x768_1_0 : S768x478.Transposes [1, 0] S478x768
  shapeCasts_S115_S1x115 : S115.ShapeCasts S1x115
  shapeCasts_S478_S1x478 : S478.ShapeCasts S1x478
  concatenates_S115_S478_S593_d0 : Shape.Concatenates [S115, S478] S593 0
  transposes_S115x16384_S16384x115_1_0 : S115x16384.Transposes [1, 0] S16384x115
  transposes_S478x16384_S16384x478_1_0 : S478x16384.Transposes [1, 0] S16384x478
  inb_S4096x768_S4096x768_0_0 : ∀ a, (![0, 0] : Fin 2 → Nat) a + S4096x768.size a ≤ S4096x768.size a
  h_S4096x768 : 0 < S4096x768.numel
  bitsLt_bf16_f32 : FTy.bits .bf16 < FTy.bits .f32
  inb_S593_S593_0 : ∀ a, (![0] : Fin 1 → Nat) a + S593.size a ≤ S593.size a
  h_S593 : 0 < S593.numel
  shapeCasts_S593_S593 : S593.ShapeCasts S593
  shapeCasts_S593_S1x593 : S593.ShapeCasts S1x593
  transposes_S1x593_p1_0_S593x1 : S1x593.Transposes [1, 0] S593x1
  slices_S593x1_o115_0_S478x1 : S593x1.Slices ![115, 0] S478x1
  inb_S1x478_S1x478_0_0 : ∀ a, (![0, 0] : Fin 2 → Nat) a + S1x478.size a ≤ S1x478.size a
  h_S1x478 : 0 < S1x478.numel
  shapeCasts_S1x478_S1x478 : S1x478.ShapeCasts S1x478
  transposes_S1x478_p1_0_S478x1 : S1x478.Transposes [1, 0] S478x1
  inb_S478x768_S478x768_0_0 : ∀ a, (![0, 0] : Fin 2 → Nat) a + S478x768.size a ≤ S478x768.size a
  h_S478x768 : 0 < S478x768.numel
  shapeCasts_S478x768_S478x768 : S478x768.ShapeCasts S478x768
  broadcasts_S478x1_S478x4096 : S478x1.Broadcasts S478x4096
  inb_S478x4096_S478x4096_0_0 : ∀ a, (![0, 0] : Fin 2 → Nat) a + S478x4096.size a ≤ S478x4096.size a
  h_S478x4096 : 0 < S478x4096.numel
  slices_S593x1_o0_0_S115x1 : S593x1.Slices ![0, 0] S115x1
  inb_S1x115_S1x115_0_0 : ∀ a, (![0, 0] : Fin 2 → Nat) a + S1x115.size a ≤ S1x115.size a
  h_S1x115 : 0 < S1x115.numel
  shapeCasts_S1x115_S1x115 : S1x115.ShapeCasts S1x115
  transposes_S1x115_p1_0_S115x1 : S1x115.Transposes [1, 0] S115x1
  inb_S115x768_S115x768_0_0 : ∀ a, (![0, 0] : Fin 2 → Nat) a + S115x768.size a ≤ S115x768.size a
  h_S115x768 : 0 < S115x768.numel
  shapeCasts_S115x768_S115x768 : S115x768.ShapeCasts S115x768
  broadcasts_S115x1_S115x4096 : S115x1.Broadcasts S115x4096
  inb_S115x4096_S115x4096_0_0 : ∀ a, (![0, 0] : Fin 2 → Nat) a + S115x4096.size a ≤ S115x4096.size a
  h_S115x4096 : 0 < S115x4096.numel
  dot_S478x768_S4096x768_S478x4096_1_1_0_0_n_n_wf : DotDims.WF S478x768 S4096x768 S478x4096 [1] [1] [0] [0] [] []
  dot_S115x768_S4096x768_S115x4096_1_1_0_0_n_n_wf : DotDims.WF S115x768 S4096x768 S115x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S16384x768.size a
  hwx0_0 : ∀ i : grid0.Coords, EltTy.bits .f32 = 32 ∨ (Rect.block (s := S16384x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S115x768.size a ≤ S115x768.size a
  hwx0_1 : ∀ i : grid0.Coords, EltTy.bits .f32 = 32 ∨ (Rect.block (s := S115x768) S115x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S478x768.size a ≤ S478x768.size a
  hwx0_2 : ∀ i : grid0.Coords, EltTy.bits .f32 = 32 ∨ (Rect.block (s := S478x768) S478x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x115.size a ≤ S1x115.size a
  hwx0_3 : ∀ i : grid0.Coords, EltTy.bits .f32 = 32 ∨ (Rect.block (s := S1x115) S1x115.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x478.size a ≤ S1x478.size a
  hwx0_4 : ∀ i : grid0.Coords, EltTy.bits .f32 = 32 ∨ (Rect.block (s := S1x478) S1x478.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S593.size a ≤ S593.size a
  hwx0_5 : ∀ i : grid0.Coords, EltTy.bits .f32 = 32 ∨ (Rect.block (s := S593) S593.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S115x4096.size a ≤ S115x16384.size a
  hwx0_6 : ∀ i : grid0.Coords, EltTy.bits .f32 = 32 ∨ (Rect.block (s := S115x16384) S115x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S478x4096.size a ≤ S478x16384.size a
  hwx0_7 : ∀ i : grid0.Coords, EltTy.bits .f32 = 32 ∨ (Rect.block (s := S478x16384) S478x4096.size (cc0_transform_7 i) (hinb0_7 i)).WholeWords (EltTy.packing .f32)

variable [Facts₀]

def dot_S478x768_S4096x768_S478x4096_1_1_0_0_n_n : DotDims S478x768 S4096x768 S478x4096 where
  lhsContracting := [1]
  rhsContracting := [1]
  lhsNonContracting := [0]
  rhsNonContracting := [0]
  lhsBatch := []
  rhsBatch := []
  wf := dot_S478x768_S4096x768_S478x4096_1_1_0_0_n_n_wf
def dot_S115x768_S4096x768_S115x4096_1_1_0_0_n_n : DotDims S115x768 S4096x768 S115x4096 where
  lhsContracting := [1]
  rhsContracting := [1]
  lhsNonContracting := [0]
  rhsNonContracting := [0]
  lhsBatch := []
  rhsBatch := []
  wf := dot_S115x768_S4096x768_S115x4096_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S115x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S478x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x115.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x478.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S593.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6_0) S115x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6_1) S478x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x768 : Shape := ⟨2, ![16384, 768]⟩
abbrev S768x115 : Shape := ⟨2, ![768, 115]⟩
abbrev S115 : Shape := ⟨1, ![115]⟩
abbrev S768x478 : Shape := ⟨2, ![768, 478]⟩
abbrev S478 : Shape := ⟨1, ![478]⟩
abbrev S16384x115 : Shape := ⟨2, ![16384, 115]⟩
abbrev S1x115 : Shape := ⟨2, ![1, 115]⟩
abbrev S16384x478 : Shape := ⟨2, ![16384, 478]⟩
abbrev S1x478 : Shape := ⟨2, ![1, 478]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S768x115, .f32⟩
  | .hbm, ⟨2, _⟩ => ⟨S115, .f32⟩
  | .hbm, ⟨3, _⟩ => ⟨S768x478, .f32⟩
  | .hbm, ⟨4, _⟩ => ⟨S478, .f32⟩
  | .hbm, ⟨5, _⟩ => ⟨S115, .i1⟩
  | .hbm, ⟨6, _⟩ => ⟨S478, .i1⟩
  | .hbm, ⟨7, _⟩ => ⟨S16384x115, .f32⟩
  | .hbm, ⟨8, _⟩ => ⟨S1x115, .f32⟩
  | .hbm, ⟨9, _⟩ => ⟨S16384x115, .f32⟩
  | .hbm, ⟨10, _⟩ => ⟨S16384x115, .f32⟩
  | .hbm, ⟨11, _⟩ => ⟨S16384x478, .f32⟩
  | .hbm, ⟨12, _⟩ => ⟨S1x478, .f32⟩
  | .hbm, ⟨13, _⟩ => ⟨S16384x478, .f32⟩
  | .hbm, ⟨14, _⟩ => ⟨S16384x478, .f32⟩
  | .hbm, ⟨15, _⟩ => ⟨S1x115, .i1⟩
  | .hbm, ⟨16, _⟩ => ⟨S_, .f32⟩
  | .hbm, ⟨17, _⟩ => ⟨S_, .f32⟩
  | .hbm, ⟨18, _⟩ => ⟨S16384x115, .i1⟩
  | .hbm, ⟨19, _⟩ => ⟨S16384x115, .f32⟩
  | .hbm, ⟨20, _⟩ => ⟨S16384x115, .f32⟩
  | .hbm, ⟨21, _⟩ => ⟨S1x478, .i1⟩
  | .hbm, ⟨22, _⟩ => ⟨S_, .f32⟩
  | .hbm, ⟨23, _⟩ => ⟨S_, .f32⟩
  | .hbm, ⟨24, _⟩ => ⟨S16384x478, .i1⟩
  | .hbm, ⟨25, _⟩ => ⟨S16384x478, .f32⟩
  | .hbm, ⟨26, _⟩ => ⟨S16384x478, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  bcast_S115_S1x115_1 : S115.BroadcastsInDim S1x115 (![1] : Fin 1 → Fin S1x115.rank)
  bcast_S1x115_S16384x115_0_1 : S1x115.BroadcastsInDim S16384x115 (![0, 1] : Fin 2 → Fin S16384x115.rank)
  bcast_S478_S1x478_1 : S478.BroadcastsInDim S1x478 (![1] : Fin 1 → Fin S1x478.rank)
  bcast_S1x478_S16384x478_0_1 : S1x478.BroadcastsInDim S16384x478 (![0, 1] : Fin 2 → Fin S16384x478.rank)
  bcast_S_S16384x115 : S_.BroadcastsInDim S16384x115 (![] : Fin 0 → Fin S16384x115.rank)
  bcast_S_S16384x478 : S_.BroadcastsInDim S16384x478 (![] : Fin 0 → Fin S16384x478.rank)
  dot_S16384x768_S768x115_S16384x115_1_0_0_1_n_n_wf : DotDims.WF S16384x768 S768x115 S16384x115 [1] [0] [0] [1] [] []
  dot_S16384x768_S768x478_S16384x478_1_0_0_1_n_n_wf : DotDims.WF S16384x768 S768x478 S16384x478 [1] [0] [0] [1] [] []

variable [Facts₀]

def dot_S16384x768_S768x115_S16384x115_1_0_0_1_n_n : DotDims S16384x768 S768x115 S16384x115 where
  lhsContracting := [1]
  rhsContracting := [0]
  lhsNonContracting := [0]
  rhsNonContracting := [1]
  lhsBatch := []
  rhsBatch := []
  wf := dot_S16384x768_S768x115_S16384x115_1_0_0_1_n_n_wf
def dot_S16384x768_S768x478_S16384x478_1_0_0_1_n_n : DotDims S16384x768 S768x478 S16384x478 where
  lhsContracting := [1]
  rhsContracting := [0]
  lhsNonContracting := [0]
  rhsNonContracting := [1]
  lhsBatch := []
  rhsBatch := []
  wf := dot_S16384x768_S768x478_S16384x478_1_0_0_1_n_n_wf

class Facts : Prop extends Facts₀ where

variable [Facts]
-- ==== Proof.HostPrefix.lean ====
/-
  What the kernel's region finds in the buffers the host lines before it wrote: the two weight matrices
  transposed, the two biases as one-row matrices, and the two one-bit marks joined into one vector of 593
  entries and read as numbers.
-/
import proofs.«124433_g46634754900585_cont_8to1_c_1152_52_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The verb weights as the region finds them: the argument transposed. -/
theorem V_wv (c : Dev nD) : (V m c main_call0_v0 : S115x768.Idx → Elt F .f32)
    = transpose S115x768 [1, 0] (m ((c : Thread nD τ).loc main_arg1)) transposes_S768x115_S115x768_1_0 := by
  show StableHlo.after hostOps0 (fun b => m (c, b)) (Proc.devRef .tc main_call0_v0) = _
  after_results
  rfl

/-- The noun weights as the region finds them: the argument transposed. -/
theorem V_wn (c : Dev nD) : (V m c main_call0_v1 : S478x768.Idx → Elt F .f32)
    = transpose S478x768 [1, 0] (m ((c : Thread nD τ).loc main_arg3)) transposes_S768x478_S478x768_1_0 := by
  show StableHlo.after hostOps0 (fun b => m (c, b)) (Proc.devRef .tc main_call0_v1) = _
  after_results
  rfl

/-- The verb bias as the region finds it: the argument as a one-row matrix. -/
theorem V_bv (c : Dev nD) : (V m c main_call0_v2 : S1x115.Idx → Elt F .f32)
    = shapeCast S1x115 (m ((c : Thread nD τ).loc main_arg2)) shapeCasts_S115_S1x115 := by
  show StableHlo.after hostOps0 (fun b => m (c, b)) (Proc.devRef .tc main_call0_v2) = _
  after_results
  rfl

/-- The noun bias as the region finds it: the argument as a one-row matrix. -/
theorem V_bn (c : Dev nD) : (V m c main_call0_v3 : S1x478.Idx → Elt F .f32)
    = shapeCast S1x478 (m ((c : Thread nD τ).loc main_arg4)) shapeCasts_S478_S1x478 := by
  show StableHlo.after hostOps0 (fun b => m (c, b)) (Proc.devRef .tc main_call0_v3) = _
  after_results
  rfl

/-- The marks as the region finds them: the verb marks followed by the noun marks, each bit read as a number. -/
theorem V_marks (c : Dev nD) : (V m c main_call0_v5 : S593.Idx → Elt F .f32)
    = uitofp .f32 (concatenate S593 0 [⟨S115, (m ((c : Thread nD τ).loc main_arg5) : S115.Idx → BitVec 1)⟩,
        ⟨S478, (m ((c : Thread nD τ).loc main_arg6) : S478.Idx → BitVec 1)⟩] concatenates_S115_S478_S593_d0) := by
  show StableHlo.after hostOps0 (fun b => m (c, b)) (Proc.devRef .tc main_call0_v5) = _
  after_results
  rfl

end Cert.KernelIdeal.HostPrefix

end
-- ==== Proof.MaskedHead.lean ====
/-
  One classifier head with unseen classes masked out, as a function of its inputs, and the law of one entry.

  For features `x : [B, K]`, weights `W : [K, N]`, a bias `b : [N]` and a one-bit mark `seen : [N]`,
  entry `(r, c)` of the head is `∑ k, x[r, k] · W[k, c] + b[c]` when class `c` is seen and the fixed
  value `maskVal` (the f32 nearest to -10¹²) when it is not.

  The kernel computes the same entry without a branch on the logit: with the mark as a number `μ ∈ {0, 1}`
  it forms `s · μ + (if μ ≠ 0 then b else maskVal)` where `s` is the sum of products.  On the extended reals
  `s · 1 = s` and `s · 0 = 0` for EVERY `s` (also an infinite one), and `0 + maskVal = maskVal`, so the two
  agree for each value of the mark: `masked_entry`.  No finiteness of the inputs is needed.
-/
import Idealize.ShloMosaic.PureOps.Ideal
import Idealize.ShloMosaic.PureOps.Ideal.Laws
import Idealize.ShloMosaic.Lib.ValueIdx

noncomputable section

namespace Cert.MaskedHead

open Idealize.ShloMosaic Idealize.ShloMosaic.ValueIdx

/-- The value an unseen class is set to: the f32 word both programs print for -10¹². -/
abbrev maskVal : EReal := Ideal.ofBits .f32 0xD368D4A5#32

/-- Entry `(r, c)` of a masked head. -/
def headAt {B K N : ℕ} (x : (⟨2, ![B, K]⟩ : Shape).Idx → EReal) (W : (⟨2, ![K, N]⟩ : Shape).Idx → EReal)
    (b : (⟨1, ![N]⟩ : Shape).Idx → EReal) (seen : (⟨1, ![N]⟩ : Shape).Idx → BitVec 1) (r : Fin B) (c : Fin N) : EReal :=
  Scalar.select (seen (ix1 c)) ((∑ k : Fin K, x (ix2 r k) * W (ix2 k c)) + b (ix1 c)) maskVal

/-- The masked head, `[B, N]`. -/
def head {B K N : ℕ} (x : (⟨2, ![B, K]⟩ : Shape).Idx → EReal) (W : (⟨2, ![K, N]⟩ : Shape).Idx → EReal)
    (b : (⟨1, ![N]⟩ : Shape).Idx → EReal) (seen : (⟨1, ![N]⟩ : Shape).Idx → BitVec 1) :
    (⟨2, ![B, N]⟩ : Shape).Idx → EReal := fun i => headAt x W b seen (i 0) (i 1)

/-- The same head laid out class-major, `[N, B]`: what the kernel writes before the final transposition. -/
def headT {B K N : ℕ} (x : (⟨2, ![B, K]⟩ : Shape).Idx → EReal) (W : (⟨2, ![K, N]⟩ : Shape).Idx → EReal)
    (b : (⟨1, ![N]⟩ : Shape).Idx → EReal) (seen : (⟨1, ![N]⟩ : Shape).Idx → BitVec 1) :
    (⟨2, ![N, B]⟩ : Shape).Idx → EReal := fun j => headAt x W b seen (j 1) (j 0)

/-- A one-bit mark read as a number is 0 or 1; multiplying the logit by it and adding the bias chosen by
    `mark ≠ 0` is choosing between `logit + bias` and `maskVal` by the mark. -/
theorem masked_entry (mark : BitVec 1) (s bias : EReal) :
    s * (((mark.toNat : ℝ) : EReal)) + Scalar.select (Ideal.cmp .one (((mark.toNat : ℝ) : EReal)) 0) bias maskVal
      = Scalar.select mark (s + bias) maskVal := by
  rcases BitVec.eq_zero_or_eq_one mark with h | h <;> subst h
  · have e : (((0#1 : BitVec 1).toNat : ℝ) : EReal) = 0 := by norm_num
    rw [e, mul_zero, zero_add]
    have hc : Ideal.cmp .one (0 : EReal) 0 = 0#1 := by simp [Ideal.cmp]
    rw [hc, select_zero, select_zero]
  · have e : (((1#1 : BitVec 1).toNat : ℝ) : EReal) = 1 := by norm_num
    rw [e, mul_one]
    have hc : Ideal.cmp .one (1 : EReal) 0 = 1#1 := by simp [Ideal.cmp]
    rw [hc, select_one, select_one]

end Cert.MaskedHead

end
-- ==== Proof.LibMatmulRowsByRows.lean ====
/-
  A product of two matrices that share their SECOND axis, read at an entry.

  For `lhs : [n, K]` and `rhs : [d, K]`, contracted over the second axis of both (the product of `lhs`
  with the transpose of `rhs`), accumulated into the all-zero matrix: at the ideal instance entry `(r, c)`
  of the result is the sum over `k` of `lhs[r, k] · rhs[c, k]`.  Any sizes, any operand formats, any
  precision.  The four hypotheses name the coordinates of the two operand indices at an output index and
  a contraction index; for a printed dimension record two of them come from unfolding the index maps and
  two from the library's facts about a single contracted axis.
-/
import Idealize.ShloMosaic.PureOps.Ideal.Laws
import Idealize.ShloMosaic.Lib.ValueIdx

noncomputable section

namespace Cert.Lib.RowsByRows

open Idealize.ShloMosaic Idealize.ShloMosaic.ValueIdx

/-- `lhs · rhsᵀ` into the zero accumulator at entry `(r, c)`: the sum over the shared axis of the
    products of row `r` of `lhs` with row `c` of `rhs`. -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.RowsByRows

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibRowCast.lean ====
/-
  A vector recast as a one-row matrix, read at an entry.

  Recasting a vector of `n` entries to the shape `[1, n]` moves no entry: the one row's entry `k` is the
  vector's entry `k` (both sit at row-major position `k`).  Any length, any element type.
-/
import Idealize.ShloMosaic.Lib.ValueIdx
import Idealize.ShloMosaic.Lib.Pipeline.Value

noncomputable section

namespace Cert.Lib.RowCast

open Idealize.ShloMosaic Idealize.ShloMosaic.ValueIdx

/-- An `[n]` array cast to `[1, n]` reads, at `(0, k)`, the operand at `k`. -/
theorem shapeCast_n_1n_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    omega)

end Cert.Lib.RowCast

end
-- ==== Proof.LibTransposeSlice.lean ====
/-
  Two layout operations on matrices read at an entry, for any sizes and any element type.

  * `transpose2_apply`: the transposition of a matrix `[a, b]` to `[b, a]` reads, at `(q, p)`, the operand at
    `(p, q)`.  With `a = 1` this is a row made a column.
  * `slice_col_apply`: rows `off … off + n - 1` of a one-column matrix `[T, 1]` read, at `(p, 0)`, the
    operand at `(off + p, 0)`.
-/
import Idealize.ShloMosaic.Lib.ValueIdx
import Idealize.ShloMosaic.Lib.Pipeline.Value

noncomputable section

namespace Cert.Lib.TransposeSlice

open Idealize.ShloMosaic Idealize.ShloMosaic.ValueIdx

/-- A matrix transposed reads, at `(q, p)`, the operand at `(p, q)`. -/
theorem transpose2_apply {α : Type} {a b : ℕ} (x : (⟨2, ![a, b]⟩ : Shape).Idx → α)
    (h : (⟨2, ![a, b]⟩ : Shape).Transposes [1, 0] ⟨2, ![b, a]⟩) (p : Fin a) (q : Fin b) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- Rows `off …` of a one-column matrix read, at `(p, 0)`, the operand at `(off + p, 0)`. -/
theorem slice_col_apply {α : Type} {T n : ℕ} (off : ℕ) (x : (⟨2, ![T, 1]⟩ : Shape).Idx → α)
    (h : (⟨2, ![T, 1]⟩ : Shape).Slices ![off, 0] ⟨2, ![n, 1]⟩) (p : Fin n) (hp : off + p.val < T) :
    extractStridedSlice ⟨2, ![n, 1]⟩ ![off, 0] x h (ix2 p (0 : Fin 1)) = x (ix2 ⟨off + p.val, hp⟩ (0 : Fin 1)) :=
  extractStridedSlice_apply ![off, 0] x h (ix2 p (0 : Fin 1)) (ix2 ⟨off + p.val, hp⟩ (0 : Fin 1)) fun ax => by
    match ax with
    | ⟨0, _⟩ => rfl
    | ⟨1, _⟩ => rfl

end Cert.Lib.TransposeSlice

end
-- ==== Proof.KernelEntry.lean ====
/-
  What the kernel's body stores, read at one entry, at the ideal instance.

  The body holds a row tile `x : [4096, 768]` of the features, the two weight matrices class-major
  (`wv : [115, 768]`, `wn : [478, 768]`), the two biases as one-row matrices and the 593 marks as numbers.
  For the verb head it stores the matrix `[115, 4096]` whose entry `(p, q)` is

      (∑ k, wv[p, k] · x[q, k]) · μ[p] + (if μ[p] ≠ 0 then bv[0, p] else maskVal),

  and for the noun head the matrix `[478, 4096]` with `wn`, `bn` and the mark `μ[115 + p]`.  The marks reach
  the arithmetic as a column: the vector made a row, the row made a column, rows `off …` of it cut out, and
  the column spread over the 4096 lanes.  Rounding an operand to bf16 before the product changes nothing here.
-/
import proofs.«124433_g46634754900585_cont_8to1_c_1152_52_alg».proof.Proof.Gen.KernelIdeal.Skeleton
import proofs.«124433_g46634754900585_cont_8to1_c_1152_52_alg».proof.Proof.MaskedHead
import proofs.«124433_g46634754900585_cont_8to1_c_1152_52_alg».proof.Proof.LibMatmulRowsByRows
import proofs.«124433_g46634754900585_cont_8to1_c_1152_52_alg».proof.Proof.LibMosaicRows
import proofs.«124433_g46634754900585_cont_8to1_c_1152_52_alg».proof.Proof.LibRowCast
import proofs.«124433_g46634754900585_cont_8to1_c_1152_52_alg».proof.Proof.LibTransposeSlice

noncomputable section

namespace Cert.KernelIdeal.Entry

open Cert.KernelIdeal Cert.KernelIdeal.Gen Idealize.ShloMosaic Idealize.ShloMosaic.ValueIdx Cert.MaskedHead

/-- The marks as a column `[593, 1]` read, at `(p, 0)`, mark `p`. -/
theorem markCol_at (v : Vec Ideal S593 .f32) (p : Fin 593) :
    k0_pay2 (F := Ideal) v (ix2 p (0 : Fin 1)) = v (ix1 p) := by
  unfold k0_pay2
  refine (Cert.Lib.TransposeSlice.transpose2_apply _ transposes_S1x593_p1_0_S593x1 (0 : Fin 1) p).trans ?_
  refine (Cert.Lib.RowCast.shapeCast_n_1n_apply _ shapeCasts_S593_S1x593 p).trans ?_
  rw [shapeCast_self]

/-! ## The two products' index maps: rows of the left operand against rows of the right -/

theorem verbDot_l0 (j : S115x4096.Idx) (q : dot_S115x768_S4096x768_S115x4096_1_1_0_0_n_n.contr.Idx) : (dot_S115x768_S4096x768_S115x4096_1_1_0_0_n_n.lhsIdx j q 0).val = (j 0).val := by
  unfold DotDims.lhsIdx
  rw [dif_neg (show ¬(0 : Fin S115x768.rank) ∈ dot_S115x768_S4096x768_S115x4096_1_1_0_0_n_n.lhsBatch by decide), dif_pos (show (0 : Fin S115x768.rank) ∈ dot_S115x768_S4096x768_S115x4096_1_1_0_0_n_n.lhsNonContracting by decide)]
  rfl
theorem verbDot_l1 (j : S115x4096.Idx) (q : dot_S115x768_S4096x768_S115x4096_1_1_0_0_n_n.contr.Idx) : (dot_S115x768_S4096x768_S115x4096_1_1_0_0_n_n.lhsIdx j q 1).val = (q ⟨0, by decide⟩).val :=
  dot_S115x768_S4096x768_S115x4096_1_1_0_0_n_n.lhsIdx_val_of_single rfl j q
theorem verbDot_r0 (j : S115x4096.Idx) (q : dot_S115x768_S4096x768_S115x4096_1_1_0_0_n_n.contr.Idx) : (dot_S115x768_S4096x768_S115x4096_1_1_0_0_n_n.rhsIdx j q 0).val = (j 1).val := by
  unfold DotDims.rhsIdx
  rw [dif_neg (show ¬(0 : Fin S4096x768.rank) ∈ dot_S115x768_S4096x768_S115x4096_1_1_0_0_n_n.rhsBatch by decide), dif_pos (show (0 : Fin S4096x768.rank) ∈ dot_S115x768_S4096x768_S115x4096_1_1_0_0_n_n.rhsNonContracting by decide)]
  rfl
theorem verbDot_r1 (j : S115x4096.Idx) (q : dot_S115x768_S4096x768_S115x4096_1_1_0_0_n_n.contr.Idx) : (dot_S115x768_S4096x768_S115x4096_1_1_0_0_n_n.rhsIdx j q 1).val = (q ⟨0, by decide⟩).val :=
  dot_S115x768_S4096x768_S115x4096_1_1_0_0_n_n.rhsIdx_val_of_single rfl j q

theorem nounDot_l0 (j : S478x4096.Idx) (q : dot_S478x768_S4096x768_S478x4096_1_1_0_0_n_n.contr.Idx) : (dot_S478x768_S4096x768_S478x4096_1_1_0_0_n_n.lhsIdx j q 0).val = (j 0).val := by
  unfold DotDims.lhsIdx
  rw [dif_neg (show ¬(0 : Fin S478x768.rank) ∈ dot_S478x768_S4096x768_S478x4096_1_1_0_0_n_n.lhsBatch by decide), dif_pos (show (0 : Fin S478x768.rank) ∈ dot_S478x768_S4096x768_S478x4096_1_1_0_0_n_n.lhsNonContracting by decide)]
  rfl
theorem nounDot_l1 (j : S478x4096.Idx) (q : dot_S478x768_S4096x768_S478x4096_1_1_0_0_n_n.contr.Idx) : (dot_S478x768_S4096x768_S478x4096_1_1_0_0_n_n.lhsIdx j q 1).val = (q ⟨0, by decide⟩).val :=
  dot_S478x768_S4096x768_S478x4096_1_1_0_0_n_n.lhsIdx_val_of_single rfl j q
theorem nounDot_r0 (j : S478x4096.Idx) (q : dot_S478x768_S4096x768_S478x4096_1_1_0_0_n_n.contr.Idx) : (dot_S478x768_S4096x768_S478x4096_1_1_0_0_n_n.rhsIdx j q 0).val = (j 1).val := by
  unfold DotDims.rhsIdx
  rw [dif_neg (show ¬(0 : Fin S4096x768.rank) ∈ dot_S478x768_S4096x768_S478x4096_1_1_0_0_n_n.rhsBatch by decide), dif_pos (show (0 : Fin S4096x768.rank) ∈ dot_S478x768_S4096x768_S478x4096_1_1_0_0_n_n.rhsNonContracting by decide)]
  rfl
theorem nounDot_r1 (j : S478x4096.Idx) (q : dot_S478x768_S4096x768_S478x4096_1_1_0_0_n_n.contr.Idx) : (dot_S478x768_S4096x768_S478x4096_1_1_0_0_n_n.rhsIdx j q 1).val = (q ⟨0, by decide⟩).val :=
  dot_S478x768_S4096x768_S478x4096_1_1_0_0_n_n.rhsIdx_val_of_single rfl j q

/-! ## The stored values at an entry -/

/-- The verb head's stored block at `(p, q)`. -/
theorem verb_at (x : Vec Ideal S4096x768 .f32) (μ : Vec Ideal S593 .f32) (bv : Vec Ideal S1x115 .f32) (wv : Vec Ideal S115x768 .f32)
    (p : Fin 115) (q : Fin 4096) :
    k0_pay4 (F := Ideal) x μ bv wv (ix2 p q)
      = (∑ k : Fin 768, wv (ix2 p k) * x (ix2 q k)) * μ (ix1 ⟨0 + p.val, by omega⟩)
        + Scalar.select (Ideal.cmp .one (μ (ix1 ⟨0 + p.val, by omega⟩)) 0) (bv (ix2 (0 : Fin 1) p)) maskVal := by
  have hμ : extractStridedSlice S115x1 ![0, 0] (k0_pay2 (F := Ideal) μ) slices_S593x1_o0_0_S115x1 (ix2 p (0 : Fin 1))
      = μ (ix1 ⟨0 + p.val, by omega⟩) :=
    (Cert.Lib.TransposeSlice.slice_col_apply 0 _ slices_S593x1_o0_0_S115x1 p (by omega)).trans (markCol_at μ _)
  have hb : transpose S115x1 [1, 0] (shapeCast S1x115 bv shapeCasts_S1x115_S1x115) transposes_S1x115_p1_0_S115x1 (ix2 p (0 : Fin 1))
      = bv (ix2 (0 : Fin 1) p) := by
    rw [shapeCast_self]
    exact Cert.Lib.TransposeSlice.transpose2_apply _ transposes_S1x115_p1_0_S115x1 (0 : Fin 1) p
  have hs : matmul dot_S115x768_S4096x768_S115x4096_1_1_0_0_n_n none (truncf .bf16 (shapeCast S115x768 wv shapeCasts_S115x768_S115x768) bitsLt_bf16_f32)
        (k0_pay1 (F := Ideal) x) (constant S115x4096 .f32 0x00000000#32) (ix2 p q)
      = ∑ k : Fin 768, wv (ix2 p k) * x (ix2 q k) := by
    rw [shapeCast_self]
    exact Cert.Lib.RowsByRows.matmul_zero_at dot_S115x768_S4096x768_S115x4096_1_1_0_0_n_n rfl rfl verbDot_l0 verbDot_l1 verbDot_r0 verbDot_r1 none _ _ p q
  unfold k0_pay4
  show matmul dot_S115x768_S4096x768_S115x4096_1_1_0_0_n_n none (truncf .bf16 (shapeCast S115x768 wv shapeCasts_S115x768_S115x768) bitsLt_bf16_f32)
        (k0_pay1 (F := Ideal) x) (constant S115x4096 .f32 0x00000000#32) (ix2 p q)
      * broadcastTo S115x4096 (extractStridedSlice S115x1 ![0, 0] (k0_pay2 (F := Ideal) μ) slices_S593x1_o0_0_S115x1) broadcasts_S115x1_S115x4096 (ix2 p q)
      + broadcastTo S115x4096 (select (cmpf .one (extractStridedSlice S115x1 ![0, 0] (k0_pay2 (F := Ideal) μ) slices_S593x1_o0_0_S115x1) (broadcast S115x1 (Scalar.ofBits (F := Ideal) .f32 0x00000000#32)))
          (transpose S115x1 [1, 0] (shapeCast S1x115 bv shapeCasts_S1x115_S1x115) transposes_S1x115_p1_0_S115x1)
          (broadcast S115x1 (Scalar.ofBits (F := Ideal) .f32 0xD368D4A5#32))) broadcasts_S115x1_S115x4096 (ix2 p q) = _
  rw [hs, Cert.Lib.MosaicRows.col_repeated _ broadcasts_S115x1_S115x4096 p q, Cert.Lib.MosaicRows.col_repeated _ broadcasts_S115x1_S115x4096 p q, hμ]
  show _ + Scalar.select (Ideal.cmp .one (extractStridedSlice S115x1 ![0, 0] (k0_pay2 (F := Ideal) μ) slices_S593x1_o0_0_S115x1 (ix2 p (0 : Fin 1))) (Ideal.ofBits .f32 0x00000000#32))
      (transpose S115x1 [1, 0] (shapeCast S1x115 bv shapeCasts_S1x115_S1x115) transposes_S1x115_p1_0_S115x1 (ix2 p (0 : Fin 1))) maskVal = _
  rw [hμ, hb, Ideal.ofBits_zero_f32]

/-- The noun head's stored block at `(p, q)`. -/
theorem noun_at (x : Vec Ideal S4096x768 .f32) (μ : Vec Ideal S593 .f32) (bn : Vec Ideal S1x478 .f32) (wn : Vec Ideal S478x768 .f32)
    (p : Fin 478) (q : Fin 4096) :
    k0_pay3 (F := Ideal) x μ bn wn (ix2 p q)
      = (∑ k : Fin 768, wn (ix2 p k) * x (ix2 q k)) * μ (ix1 ⟨115 + p.val, by omega⟩)
        + Scalar.select (Ideal.cmp .one (μ (ix1 ⟨115 + p.val, by omega⟩)) 0) (bn (ix2 (0 : Fin 1) p)) maskVal := by
  have hμ : extractStridedSlice S478x1 ![115, 0] (k0_pay2 (F := Ideal) μ) slices_S593x1_o115_0_S478x1 (ix2 p (0 : Fin 1))
      = μ (ix1 ⟨115 + p.val, by omega⟩) :=
    (Cert.Lib.TransposeSlice.slice_col_apply 115 _ slices_S593x1_o115_0_S478x1 p (by omega)).trans (markCol_at μ _)
  have hb : transpose S478x1 [1, 0] (shapeCast S1x478 bn shapeCasts_S1x478_S1x478) transposes_S1x478_p1_0_S478x1 (ix2 p (0 : Fin 1))
      = bn (ix2 (0 : Fin 1) p) := by
    rw [shapeCast_self]
    exact Cert.Lib.TransposeSlice.transpose2_apply _ transposes_S1x478_p1_0_S478x1 (0 : Fin 1) p
  have hs : matmul dot_S478x768_S4096x768_S478x4096_1_1_0_0_n_n none (truncf .bf16 (shapeCast S478x768 wn shapeCasts_S478x768_S478x768) bitsLt_bf16_f32)
        (k0_pay1 (F := Ideal) x) (constant S478x4096 .f32 0x00000000#32) (ix2 p q)
      = ∑ k : Fin 768, wn (ix2 p k) * x (ix2 q k) := by
    rw [shapeCast_self]
    exact Cert.Lib.RowsByRows.matmul_zero_at dot_S478x768_S4096x768_S478x4096_1_1_0_0_n_n rfl rfl nounDot_l0 nounDot_l1 nounDot_r0 nounDot_r1 none _ _ p q
  unfold k0_pay3
  show matmul dot_S478x768_S4096x768_S478x4096_1_1_0_0_n_n none (truncf .bf16 (shapeCast S478x768 wn shapeCasts_S478x768_S478x768) bitsLt_bf16_f32)
        (k0_pay1 (F := Ideal) x) (constant S478x4096 .f32 0x00000000#32) (ix2 p q)
      * broadcastTo S478x4096 (extractStridedSlice S478x1 ![115, 0] (k0_pay2 (F := Ideal) μ) slices_S593x1_o115_0_S478x1) broadcasts_S478x1_S478x4096 (ix2 p q)
      + broadcastTo S478x4096 (select (cmpf .one (extractStridedSlice S478x1 ![115, 0] (k0_pay2 (F := Ideal) μ) slices_S593x1_o115_0_S478x1) (broadcast S478x1 (Scalar.ofBits (F := Ideal) .f32 0x00000000#32)))
          (transpose S478x1 [1, 0] (shapeCast S1x478 bn shapeCasts_S1x478_S1x478) transposes_S1x478_p1_0_S478x1)
          (broadcast S478x1 (Scalar.ofBits (F := Ideal) .f32 0xD368D4A5#32))) broadcasts_S478x1_S478x4096 (ix2 p q) = _
  rw [hs, Cert.Lib.MosaicRows.col_repeated _ broadcasts_S478x1_S478x4096 p q, Cert.Lib.MosaicRows.col_repeated _ broadcasts_S478x1_S478x4096 p q, hμ]
  show _ + Scalar.select (Ideal.cmp .one (extractStridedSlice S478x1 ![115, 0] (k0_pay2 (F := Ideal) μ) slices_S593x1_o115_0_S478x1 (ix2 p (0 : Fin 1))) (Ideal.ofBits .f32 0x00000000#32))
      (transpose S478x1 [1, 0] (shapeCast S1x478 bn shapeCasts_S1x478_S1x478) transposes_S1x478_p1_0_S478x1 (ix2 p (0 : Fin 1))) maskVal = _
  rw [hμ, hb, Ideal.ofBits_zero_f32]

end Cert.KernelIdeal.Entry

end
-- ==== Proof.HeadBridge.lean ====
/-
  From what the body stores to the masked head.

  The body's stored value at an entry (KernelEntry) is written over the tile, the class-major weights, the
  bias row and the marks as numbers.  Here those are tied to the program's arguments: the tile is a block of
  rows of the features, the class-major weights are the weights transposed, the bias row is the bias, and
  mark `p` of the joined vector is verb mark `p` for `p < 115` and noun mark `p - 115` from there on, a bit
  read as 0 or 1.  Entry `(p, q)` of the stored block at grid point `t` is then entry `(4096 t + q, p)` of the
  masked head (MaskedHead), the products commuted and the mark's two cases settled by `masked_entry`.
-/
import proofs.«124433_g46634754900585_cont_8to1_c_1152_52_alg».proof.Proof.KernelEntry
import Idealize.ShloMosaic.Lib.Pipeline.Value

noncomputable section

namespace Cert.KernelIdeal.Bridge

open Cert.KernelIdeal Cert.KernelIdeal.Gen Idealize.ShloMosaic Idealize.ShloMosaic.ValueIdx Cert.MaskedHead

/-- The joined marks below position 115 are the verb marks, each bit as a number. -/
theorem marks_verb_at (s5 : S115.Idx → BitVec 1) (s6 : S478.Idx → BitVec 1) (p : Fin 115) (h : 0 + p.val < 593) :
    (uitofp .f32 (concatenate S593 0 [⟨S115, s5⟩, ⟨S478, s6⟩] concatenates_S115_S478_S593_d0) : FVec Ideal S593 .f32) (ix1 ⟨0 + p.val, h⟩)
      = (((s5 (ix1 p)).toNat : ℝ) : EReal) := by
  show ((((concatenate S593 0 [⟨S115, s5⟩, ⟨S478, s6⟩] concatenates_S115_S478_S593_d0) (ix1 ⟨0 + p.val, h⟩)).toNat : ℝ) : EReal) = _
  rw [concatenate_pair_apply_left (0 : Fin S593.rank) s5 s6 concatenates_S115_S478_S593_d0 (ix1 ⟨0 + p.val, h⟩) rfl (ix1 p) (fun b => by
    match b with
    | ⟨0, _⟩ => show p.val = 0 + p.val; omega)]

/-- The joined marks from position 115 on are the noun marks, each bit as a number. -/
theorem marks_noun_at (s5 : S115.Idx → BitVec 1) (s6 : S478.Idx → BitVec 1) (p : Fin 478) (h : 115 + p.val < 593) :
    (uitofp .f32 (concatenate S593 0 [⟨S115, s5⟩, ⟨S478, s6⟩] concatenates_S115_S478_S593_d0) : FVec Ideal S593 .f32) (ix1 ⟨115 + p.val, h⟩)
      = (((s6 (ix1 p)).toNat : ℝ) : EReal) := by
  show ((((concatenate S593 0 [⟨S115, s5⟩, ⟨S478, s6⟩] concatenates_S115_S478_S593_d0) (ix1 ⟨115 + p.val, h⟩)).toNat : ℝ) : EReal) = _
  rw [concatenate_pair_apply_right (0 : Fin S593.rank) s5 s6 concatenates_S115_S478_S593_d0 (ix1 ⟨115 + p.val, h⟩) rfl rfl (ix1 p)
    (fun b hb => by
      match b with
      | ⟨0, _⟩ => exact absurd rfl hb)
    (by show p.val + 115 = 115 + p.val; omega)]

/-- The verb head's stored block is a block of the head: if the tile is rows `4096 t …` of the features, the
    weights are the argument transposed, the bias the argument as a row and the marks the two arguments
    joined and read as numbers, then entry `(p, q)` of what the body stores is entry `(4096 t + q, p)` of the
    verb head. The products are commuted term by term; the mark's two values are `masked_entry`. -/
theorem verb_block_of (x : Vec Ideal S4096x768 .f32) (μ : Vec Ideal S593 .f32) (bv : Vec Ideal S1x115 .f32) (wv : Vec Ideal S115x768 .f32)
    (X : S16384x768.Idx → EReal) (W : S768x115.Idx → EReal) (b : S115.Idx → EReal) (s5 : S115.Idx → BitVec 1) (s6 : S478.Idx → BitVec 1)
    (t : ℕ) (ht : t < 4)
    (hx : ∀ (q : Fin 4096) (k : Fin 768), x (ix2 q k) = X (ix2 ⟨4096 * t + q.val, by omega⟩ k))
    (hw : wv = transpose S115x768 [1, 0] W transposes_S768x115_S115x768_1_0)
    (hb : bv = shapeCast S1x115 b shapeCasts_S115_S1x115)
    (hμ : μ = uitofp (F := Ideal) .f32 (concatenate S593 0 [⟨S115, s5⟩, ⟨S478, s6⟩] concatenates_S115_S478_S593_d0))
    (p : Fin 115) (q : Fin 4096) :
    k0_pay4 (F := Ideal) x μ bv wv (ix2 p q) = headAt X W b s5 ⟨4096 * t + q.val, by omega⟩ p := by
  subst hw hb hμ
  rw [Entry.verb_at, marks_verb_at]
  have hsum : (∑ k : Fin 768, transpose S115x768 [1, 0] W transposes_S768x115_S115x768_1_0 (ix2 p k) * x (ix2 q k))
      = ∑ k : Fin 768, X (ix2 ⟨4096 * t + q.val, by omega⟩ k) * W (ix2 k p) :=
    Finset.sum_congr rfl fun k _ => by
      rw [hx, Cert.Lib.TransposeSlice.transpose2_apply W transposes_S768x115_S115x768_1_0 k p, mul_comm]
  rw [hsum, Cert.Lib.RowCast.shapeCast_n_1n_apply b shapeCasts_S115_S1x115 p, masked_entry]
  rfl

/-- The noun head's stored block is a block of the head: if the tile is rows `4096 t …` of the features, the
    weights are the argument transposed, the bias the argument as a row and the marks the two arguments
    joined and read as numbers, then entry `(p, q)` of what the body stores is entry `(4096 t + q, p)` of the
    noun head. The products are commuted term by term; the mark's two values are `masked_entry`. -/
theorem noun_block_of (x : Vec Ideal S4096x768 .f32) (μ : Vec Ideal S593 .f32) (bn : Vec Ideal S1x478 .f32) (wn : Vec Ideal S478x768 .f32)
    (X : S16384x768.Idx → EReal) (W : S768x478.Idx → EReal) (b : S478.Idx → EReal) (s5 : S115.Idx → BitVec 1) (s6 : S478.Idx → BitVec 1)
    (t : ℕ) (ht : t < 4)
    (hx : ∀ (q : Fin 4096) (k : Fin 768), x (ix2 q k) = X (ix2 ⟨4096 * t + q.val, by omega⟩ k))
    (hw : wn = transpose S478x768 [1, 0] W transposes_S768x478_S478x768_1_0)
    (hb : bn = shapeCast S1x478 b shapeCasts_S478_S1x478)
    (hμ : μ = uitofp (F := Ideal) .f32 (concatenate S593 0 [⟨S115, s5⟩, ⟨S478, s6⟩] concatenates_S115_S478_S593_d0))
    (p : Fin 478) (q : Fin 4096) :
    k0_pay3 (F := Ideal) x μ bn wn (ix2 p q) = headAt X W b s6 ⟨4096 * t + q.val, by omega⟩ p := by
  subst hw hb hμ
  rw [Entry.noun_at, marks_noun_at]
  have hsum : (∑ k : Fin 768, transpose S478x768 [1, 0] W transposes_S768x478_S478x768_1_0 (ix2 p k) * x (ix2 q k))
      = ∑ k : Fin 768, X (ix2 ⟨4096 * t + q.val, by omega⟩ k) * W (ix2 k p) :=
    Finset.sum_congr rfl fun k _ => by
      rw [hx, Cert.Lib.TransposeSlice.transpose2_apply W transposes_S768x478_S478x768_1_0 k p, mul_comm]
  rw [hsum, Cert.Lib.RowCast.shapeCast_n_1n_apply b shapeCasts_S478_S1x478 p, masked_entry]
  rfl

end Cert.KernelIdeal.Bridge

end
-- ==== Proof.KernelArrays.lean ====
/-
  The kernel's two output arrays after its run.

  The grid has four points; point `t` is handed rows `4096 t … 4096 t + 4095` of the features and the whole
  of the five other inputs, and writes back columns `4096 t … 4096 t + 4095` of each output, all rows.  What the
  body stores at `t` is, entry by entry, the class-major masked head of the ARGUMENTS at those columns
  (HeadBridge, with the host lines' values of the inputs from HostPrefix), so each written-back block is a
  block of ONE array; the four column blocks cover the columns, so after the run each output array IS the
  class-major head: verb `[115, 16384]`, noun `[478, 16384]`.
-/
import proofs.«124433_g46634754900585_cont_8to1_c_1152_52_alg».proof.Proof.Gen.KernelIdeal.Frame
import proofs.«124433_g46634754900585_cont_8to1_c_1152_52_alg».proof.Proof.HostPrefix
import proofs.«124433_g46634754900585_cont_8to1_c_1152_52_alg».proof.Proof.HeadBridge
import Idealize.ShloMosaic.Lib.Pipeline.Value

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx Cert.MaskedHead

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- Columns `4096 t …` of a class-major array, all rows: the block output point `t` owns. -/
def colBlock {N : ℕ} (G : (⟨2, ![N, 16384]⟩ : Shape).Idx → EReal) (t : ℕ) (ht : t < 4) :
    (⟨2, ![N, 4096]⟩ : Shape).Idx → EReal :=
  fun j => G (ix2 (j 0) ⟨4096 * t + (j 1).val, by have h : (j 1).val < 4096 := (j 1).isLt; omega⟩)

/-- The printed index maps over the four grid points: the features move along their rows with the point, the
    outputs along their columns, every other window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-! ## The input blocks -/

/-- The features' tile at point `t` is rows `4096 t …` of the argument. -/
theorem tile_at (c : Dev nD) (t : Fin cfg0.N) (q : Fin 4096) (k : Fin 768) (h : 4096 * t.val + q.val < 16384) :
    (iblk m c 0 t : Vec Ideal S4096x768 .f32) (ix2 q k)
      = ((m ((c : Thread nD τ).loc main_arg0)) : S16384x768.Idx → EReal) (ix2 ⟨4096 * t.val + q.val, h⟩ k) := by
  have e0 := (idx_facts t).1
  have e1 := (idx_facts t).2.1
  unfold iblk
  rw [View.read_apply]
  show V m c main_arg0 _ = _
  rw [V_main_arg0]
  refine congrArg _ ?_
  funext a
  apply Fin.ext
  match a with
  | ⟨0, _⟩ => show win0_0.index t (0 : Fin 2) * 4096 + 1 * q.val = 4096 * t.val + q.val; rw [e0]; omega
  | ⟨1, _⟩ => show win0_0.index t (1 : Fin 2) * 768 + 1 * k.val = k.val; rw [e1]; omega

/-- The verb weights' block is the whole class-major matrix, at every point. -/
theorem wv_blk (c : Dev nD) (t : Fin cfg0.N) : (iblk m c 1 t : Vec Ideal S115x768 .f32) = (V m c main_call0_v0 : S115x768.Idx → EReal) := by
  have e0 := (idx_facts t).2.2.1
  have e1 := (idx_facts t).2.2.2.1
  funext y
  unfold iblk
  rw [View.read_apply]
  show V m c main_call0_v0 _ = V m c main_call0_v0 y
  refine congrArg _ ?_
  funext a
  apply Fin.ext
  match a with
  | ⟨0, _⟩ => show win0_1.index t (0 : Fin 2) * 115 + 1 * (y 0).val = (y 0).val; rw [e0]; omega
  | ⟨1, _⟩ => show win0_1.index t (1 : Fin 2) * 768 + 1 * (y 1).val = (y 1).val; rw [e1]; omega

/-- The noun weights' block is the whole class-major matrix, at every point. -/
theorem wn_blk (c : Dev nD) (t : Fin cfg0.N) : (iblk m c 2 t : Vec Ideal S478x768 .f32) = (V m c main_call0_v1 : S478x768.Idx → EReal) := by
  have e0 := (idx_facts t).2.2.2.2.1
  have e1 := (idx_facts t).2.2.2.2.2.1
  funext y
  unfold iblk
  rw [View.read_apply]
  show V m c main_call0_v1 _ = V m c main_call0_v1 y
  refine congrArg _ ?_
  funext a
  apply Fin.ext
  match a with
  | ⟨0, _⟩ => show win0_2.index t (0 : Fin 2) * 478 + 1 * (y 0).val = (y 0).val; rw [e0]; omega
  | ⟨1, _⟩ => show win0_2.index t (1 : Fin 2) * 768 + 1 * (y 1).val = (y 1).val; rw [e1]; omega

/-- The verb bias' block is the whole row, at every point. -/
theorem bv_blk (c : Dev nD) (t : Fin cfg0.N) : (iblk m c 3 t : Vec Ideal S1x115 .f32) = (V m c main_call0_v2 : S1x115.Idx → EReal) := by
  have e0 := (idx_facts t).2.2.2.2.2.2.1
  have e1 := (idx_facts t).2.2.2.2.2.2.2.1
  funext y
  unfold iblk
  rw [View.read_apply]
  show V m c main_call0_v2 _ = V m c main_call0_v2 y
  refine congrArg _ ?_
  funext a
  apply Fin.ext
  match a with
  | ⟨0, _⟩ => show win0_3.index t (0 : Fin 2) * 1 + 1 * (y 0).val = (y 0).val; rw [e0]; omega
  | ⟨1, _⟩ => show win0_3.index t (1 : Fin 2) * 115 + 1 * (y 1).val = (y 1).val; rw [e1]; omega

/-- The noun bias' block is the whole row, at every point. -/
theorem bn_blk (c : Dev nD) (t : Fin cfg0.N) : (iblk m c 4 t : Vec Ideal S1x478 .f32) = (V m c main_call0_v3 : S1x478.Idx → EReal) := by
  have e0 := (idx_facts t).2.2.2.2.2.2.2.2.1
  have e1 := (idx_facts t).2.2.2.2.2.2.2.2.2.1
  funext y
  unfold iblk
  rw [View.read_apply]
  show V m c main_call0_v3 _ = V m c main_call0_v3 y
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 478 + 1 * (y 1).val = (y 1).val; rw [e1]; omega

/-- The marks' block is the whole vector, at every point. -/
theorem marks_blk (c : Dev nD) (t : Fin cfg0.N) : (iblk m c 5 t : Vec Ideal S593 .f32) = (V m c main_call0_v5 : S593.Idx → EReal) := by
  have e0 := (idx_facts t).2.2.2.2.2.2.2.2.2.2.1
  funext y
  unfold iblk
  rw [View.read_apply]
  show V m c main_call0_v5 _ = V m c main_call0_v5 y
  refine congrArg _ ?_
  funext a
  apply Fin.ext
  match a with
  | ⟨0, _⟩ => show win0_5.index t (0 : Fin 1) * 593 + 1 * (y 0).val = (y 0).val; rw [e0]; omega

/-! ## The verb output, window 6 -/

/-- What the body stores for the verb head at point `t` is block `t` of the class-major verb head. -/
theorem verb_stored (c : Dev nD) (t : Fin cfg0.N) (ht : t.val < 4) :
    k0_pay4 (F := Ideal) (iblk m c 0 t) (iblk m c 5 t) (iblk m c 3 t) (iblk m c 1 t)
      = colBlock (headT (m ((c : Thread nD τ).loc main_arg0)) (m ((c : Thread nD τ).loc main_arg1)) (m ((c : Thread nD τ).loc main_arg2)) (m ((c : Thread nD τ).loc main_arg5)) : S115x16384.Idx → EReal) t.val ht := by
  funext j
  obtain ⟨p, q, rfl⟩ : ∃ (p : Fin 115) (q : Fin 4096), j = ix2 p q := ⟨j 0, j 1, eq_ix2 j⟩
  exact Bridge.verb_block_of (iblk m c 0 t) (iblk m c 5 t) (iblk m c 3 t) (iblk m c 1 t)
    (m ((c : Thread nD τ).loc main_arg0)) (m ((c : Thread nD τ).loc main_arg1)) (m ((c : Thread nD τ).loc main_arg2)) (m ((c : Thread nD τ).loc main_arg5)) (m ((c : Thread nD τ).loc main_arg6)) t.val ht
    (fun q k => tile_at m c t q k (by omega))
    ((wv_blk m c t).trans (HostPrefix.V_wv m c))
    ((bv_blk m c t).trans (HostPrefix.V_bv m c))
    ((marks_blk m c t).trans (HostPrefix.V_marks m c)) p q

/-- Block `t` of a class-major array `[115, 16384]` read through output window 6: all 115 rows, columns `4096 t …`. -/
theorem verb_read (c : Dev nD) (t : Fin cfg0.N) (ht : t.val < 4) (G : S115x16384.Idx → EReal) :
    ((cfg0.win 6).blk t).view.read (Elt Ideal) G = colBlock G t.val ht := by
  have e0 := (idx_facts t).2.2.2.2.2.2.2.2.2.2.2.1
  have e1 := (idx_facts t).2.2.2.2.2.2.2.2.2.2.2.2.1
  funext y
  rw [View.read_apply]
  show G _ = G (ix2 (y 0) ⟨4096 * t.val + (y 1).val, _⟩)
  refine congrArg G ?_
  funext a
  apply Fin.ext
  match a with
  | ⟨0, _⟩ => show win0_6.index t (0 : Fin 2) * 115 + 1 * (y 0).val = (y 0).val; rw [e0]; omega
  | ⟨1, _⟩ => show win0_6.index t (1 : Fin 2) * 4096 + 1 * (y 1).val = 4096 * t.val + (y 1).val; rw [e1]; omega

/-- What point `t` writes back to the verb output is block `t` of the class-major verb head. -/
theorem verb_flushed (c : Dev nD) (t : Fin cfg0.N) :
    (dats m 0 c).flushed 6 t = ((cfg0.win 6).blk t).view.read (Elt Ideal)
      (headT (m ((c : Thread nD τ).loc main_arg0)) (m ((c : Thread nD τ).loc main_arg1)) (m ((c : Thread nD τ).loc main_arg2)) (m ((c : Thread nD τ).loc main_arg5)) : S115x16384.Idx → EReal) := by
  have ht : t.val < 4 := by have h := t.isLt; have hN : cfg0.N = 4 := N_0; omega
  rw [verb_read c t ht]
  show (cfg0.win 6).cut (grid0.coords t) ((dats m 0 c).after 6 t) = _
  rw [after0_6]
  unfold out0_6
  rw [View.canon_unit_zero hz2]
  simp only [View.ld_unit_zero (S := S4096x768) hz2, View.ld_unit_zero (S := S593) hz1, View.ld_unit_zero (S := S1x115) hz2, View.ld_unit_zero (S := S115x768) hz2]
  exact verb_stored m c t ht

/-- An index of the verb output array is in point `t`'s block iff each coordinate is in the block's range. -/
theorem verb_mem_blk (t : Fin cfg0.N) (i : S115x16384.Idx) :
    i ∈ ((cfg0.win 6).blk t).view.set ↔ ∀ a : Fin 2, win0_6.index t a * S115x4096.size a ≤ (i a).val ∧ (i a).val < win0_6.index t a * S115x4096.size a + S115x4096.size a := by
  show i ∈ ((View.whole main_call0_v6_0).slice (win0_6.rect t)).set ↔ _
  rw [View.set_slice_whole, Rect.mem_set_unit]
  exact Iff.rfl

/-- Every index of the verb output array is written back by the point that holds its column: `column / 4096`. -/
theorem verb_cover (i : S115x16384.Idx) : ∃ t : Fin cfg0.N, (cfg0.win 6).flush t = true ∧ i ∈ ((cfg0.win 6).blk t).view.set := by
  have hi0 : (i 0).val < 115 := (i 0).isLt
  have hi1 : (i 1).val < 16384 := (i 1).isLt
  obtain ⟨t, ht⟩ : ∃ t : Fin cfg0.N, t.val = (i 1).val / 4096 :=
    ⟨⟨(i 1).val / 4096, by rw [show cfg0.N = 4 from N_0]; omega⟩, rfl⟩
  have e0 := (idx_facts t).2.2.2.2.2.2.2.2.2.2.2.1
  have e1 := (idx_facts t).2.2.2.2.2.2.2.2.2.2.2.2.1
  refine ⟨t, flush0_6 t, ?_⟩
  rw [verb_mem_blk]
  intro a
  match a with
  | ⟨0, _⟩ => show win0_6.index t (0 : Fin 2) * 115 ≤ (i 0).val ∧ (i 0).val < win0_6.index t (0 : Fin 2) * 115 + 115; rw [e0]; omega
  | ⟨1, _⟩ => show win0_6.index t (1 : Fin 2) * 4096 ≤ (i 1).val ∧ (i 1).val < win0_6.index t (1 : Fin 2) * 4096 + 4096; rw [e1, ht]; omega

/-- The verb output array after the run: the class-major verb head of the arguments. -/
theorem verb_final (c : Dev nD) : (dats m 0 c).arrAt 6 cfg0.N
    = (headT (m ((c : Thread nD τ).loc main_arg0)) (m ((c : Thread nD τ).loc main_arg1)) (m ((c : Thread nD τ).loc main_arg2)) (m ((c : Thread nD τ).loc main_arg5)) : S115x16384.Idx → EReal) :=
  (dats m 0 c).arrAt_eq_of_cover 6 _ (fun t _ => verb_flushed m c t) verb_cover

/-! ## The noun output, window 7 -/

/-- What the body stores for the noun head at point `t` is block `t` of the class-major noun head. -/
theorem noun_stored (c : Dev nD) (t : Fin cfg0.N) (ht : t.val < 4) :
    k0_pay3 (F := Ideal) (iblk m c 0 t) (iblk m c 5 t) (iblk m c 4 t) (iblk m c 2 t)
      = colBlock (headT (m ((c : Thread nD τ).loc main_arg0)) (m ((c : Thread nD τ).loc main_arg3)) (m ((c : Thread nD τ).loc main_arg4)) (m ((c : Thread nD τ).loc main_arg6)) : S478x16384.Idx → EReal) t.val ht := by
  funext j
  obtain ⟨p, q, rfl⟩ : ∃ (p : Fin 478) (q : Fin 4096), j = ix2 p q := ⟨j 0, j 1, eq_ix2 j⟩
  exact Bridge.noun_block_of (iblk m c 0 t) (iblk m c 5 t) (iblk m c 4 t) (iblk m c 2 t)
    (m ((c : Thread nD τ).loc main_arg0)) (m ((c : Thread nD τ).loc main_arg3)) (m ((c : Thread nD τ).loc main_arg4)) (m ((c : Thread nD τ).loc main_arg5)) (m ((c : Thread nD τ).loc main_arg6)) t.val ht
    (fun q k => tile_at m c t q k (by omega))
    ((wn_blk m c t).trans (HostPrefix.V_wn m c))
    ((bn_blk m c t).trans (HostPrefix.V_bn m c))
    ((marks_blk m c t).trans (HostPrefix.V_marks m c)) p q

/-- Block `t` of a class-major array `[478, 16384]` read through output window 7: all 478 rows, columns `4096 t …`. -/
theorem noun_read (c : Dev nD) (t : Fin cfg0.N) (ht : t.val < 4) (G : S478x16384.Idx → EReal) :
    ((cfg0.win 7).blk t).view.read (Elt Ideal) G = colBlock G t.val ht := by
  have e0 := (idx_facts t).2.2.2.2.2.2.2.2.2.2.2.2.2.1
  have e1 := (idx_facts t).2.2.2.2.2.2.2.2.2.2.2.2.2.2
  funext y
  rw [View.read_apply]
  show G _ = G (ix2 (y 0) ⟨4096 * t.val + (y 1).val, _⟩)
  refine congrArg G ?_
  funext a
  apply Fin.ext
  match a with
  | ⟨0, _⟩ => show win0_7.index t (0 : Fin 2) * 478 + 1 * (y 0).val = (y 0).val; rw [e0]; omega
  | ⟨1, _⟩ => show win0_7.index t (1 : Fin 2) * 4096 + 1 * (y 1).val = 4096 * t.val + (y 1).val; rw [e1]; omega

/-- What point `t` writes back to the noun output is block `t` of the class-major noun head. -/
theorem noun_flushed (c : Dev nD) (t : Fin cfg0.N) :
    (dats m 0 c).flushed 7 t = ((cfg0.win 7).blk t).view.read (Elt Ideal)
      (headT (m ((c : Thread nD τ).loc main_arg0)) (m ((c : Thread nD τ).loc main_arg3)) (m ((c : Thread nD τ).loc main_arg4)) (m ((c : Thread nD τ).loc main_arg6)) : S478x16384.Idx → EReal) := by
  have ht : t.val < 4 := by have h := t.isLt; have hN : cfg0.N = 4 := N_0; omega
  rw [noun_read c t ht]
  show (cfg0.win 7).cut (grid0.coords t) ((dats m 0 c).after 7 t) = _
  rw [after0_7]
  unfold out0_7
  rw [View.canon_unit_zero hz2]
  simp only [View.ld_unit_zero (S := S4096x768) hz2, View.ld_unit_zero (S := S593) hz1, View.ld_unit_zero (S := S1x478) hz2, View.ld_unit_zero (S := S478x768) hz2]
  exact noun_stored m c t ht

/-- An index of the noun output array is in point `t`'s block iff each coordinate is in the block's range. -/
theorem noun_mem_blk (t : Fin cfg0.N) (i : S478x16384.Idx) :
    i ∈ ((cfg0.win 7).blk t).view.set ↔ ∀ a : Fin 2, win0_7.index t a * S478x4096.size a ≤ (i a).val ∧ (i a).val < win0_7.index t a * S478x4096.size a + S478x4096.size a := by
  show i ∈ ((View.whole main_call0_v6_1).slice (win0_7.rect t)).set ↔ _
  rw [View.set_slice_whole, Rect.mem_set_unit]
  exact Iff.rfl

/-- Every index of the noun output array is written back by the point that holds its column: `column / 4096`. -/
theorem noun_cover (i : S478x16384.Idx) : ∃ t : Fin cfg0.N, (cfg0.win 7).flush t = true ∧ i ∈ ((cfg0.win 7).blk t).view.set := by
  have hi0 : (i 0).val < 478 := (i 0).isLt
  have hi1 : (i 1).val < 16384 := (i 1).isLt
  obtain ⟨t, ht⟩ : ∃ t : Fin cfg0.N, t.val = (i 1).val / 4096 :=
    ⟨⟨(i 1).val / 4096, by rw [show cfg0.N = 4 from N_0]; omega⟩, rfl⟩
  have e0 := (idx_facts t).2.2.2.2.2.2.2.2.2.2.2.2.2.1
  have e1 := (idx_facts t).2.2.2.2.2.2.2.2.2.2.2.2.2.2
  refine ⟨t, flush0_7 t, ?_⟩
  rw [noun_mem_blk]
  intro a
  match a with
  | ⟨0, _⟩ => show win0_7.index t (0 : Fin 2) * 478 ≤ (i 0).val ∧ (i 0).val < win0_7.index t (0 : Fin 2) * 478 + 478; rw [e0]; omega
  | ⟨1, _⟩ => show win0_7.index t (1 : Fin 2) * 4096 ≤ (i 1).val ∧ (i 1).val < win0_7.index t (1 : Fin 2) * 4096 + 4096; rw [e1, ht]; omega

/-- The noun output array after the run: the class-major noun head of the arguments. -/
theorem noun_final (c : Dev nD) : (dats m 0 c).arrAt 7 cfg0.N
    = (headT (m ((c : Thread nD τ).loc main_arg0)) (m ((c : Thread nD τ).loc main_arg3)) (m ((c : Thread nD τ).loc main_arg4)) (m ((c : Thread nD τ).loc main_arg6)) : S478x16384.Idx → EReal) :=
  (dats m 0 c).arrAt_eq_of_cover 7 _ (fun t _ => noun_flushed m c t) noun_cover

end Cert.KernelIdeal.Arrays

end
-- ==== Proof.KernelRun.lean ====
/-
  The kernel's run, read: both results as the masked heads of the arguments.

  After the region the program transposes each class-major output `[N, 16384]` to `[16384, N]`.  The output
  arrays end at the class-major heads (KernelArrays), and the transposition of a class-major head is the head.
  The arguments end unchanged, as in the frame.
-/
import proofs.«124433_g46634754900585_cont_8to1_c_1152_52_alg».proof.Proof.Gen.KernelIdeal.Frame
import proofs.«124433_g46634754900585_cont_8to1_c_1152_52_alg».proof.Proof.KernelArrays
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx Cert.MaskedHead Idealize.ShloMosaic.StableHlo

variable (m : (ℓ : Loc nD τ sig) → Buf (Elt Ideal) ℓ) (ρ : Dev nD → PrngReg)

/-- The verb result after the closing transposition is the masked verb head of the arguments. -/
theorem tail_verb (c : Dev nD) :
    (Pipeline.afterTail₀ cfgs (dats m) 0 (V0 m) [hostOps1] c main_v0_0 : S16384x115.Idx → EReal)
      = head (m ((c : Thread nD τ).loc main_arg0)) (m ((c : Thread nD τ).loc main_arg1)) (m ((c : Thread nD τ).loc main_arg2)) (m ((c : Thread nD τ).loc main_arg5)) := by
  have hw : (Pipeline.withArrays (cfgs 0).spec c (V0 m c) (fun w => (dats m 0 c).arrAt w (cfgs 0).N) (Proc.devRef .tc main_call0_v6_0) : S115x16384.Idx → EReal)
      = headT (m ((c : Thread nD τ).loc main_arg0)) (m ((c : Thread nD τ).loc main_arg1)) (m ((c : Thread nD τ).loc main_arg2)) (m ((c : Thread nD τ).loc main_arg5)) :=
    (Pipeline.withArrays_arr spec0 launch0.win.arr_inj c _ _ 6).trans (Arrays.verb_final m c)
  unfold Pipeline.afterTail₀
  show StableHlo.after hostOps1 _ (Proc.devRef .tc main_v0_0) = _
  after_results
  show transpose S16384x115 [1, 0] (Pipeline.withArrays (cfgs 0).spec c (V0 m c) (fun w => (dats m 0 c).arrAt w (cfgs 0).N) (Proc.devRef .tc main_call0_v6_0)) transposes_S115x16384_S16384x115_1_0 = _
  rw [hw]
  funext i
  obtain ⟨r, p, rfl⟩ : ∃ (r : Fin 16384) (p : Fin 115), i = ix2 r p := ⟨i 0, i 1, eq_ix2 i⟩
  exact Cert.Lib.TransposeSlice.transpose2_apply _ transposes_S115x16384_S16384x115_1_0 p r

/-- The noun result after the closing transposition is the masked noun head of the arguments. -/
theorem tail_noun (c : Dev nD) :
    (Pipeline.afterTail₀ cfgs (dats m) 0 (V0 m) [hostOps1] c main_v0_1 : S16384x478.Idx → EReal)
      = head (m ((c : Thread nD τ).loc main_arg0)) (m ((c : Thread nD τ).loc main_arg3)) (m ((c : Thread nD τ).loc main_arg4)) (m ((c : Thread nD τ).loc main_arg6)) := by
  have hw : (Pipeline.withArrays (cfgs 0).spec c (V0 m c) (fun w => (dats m 0 c).arrAt w (cfgs 0).N) (Proc.devRef .tc main_call0_v6_1) : S478x16384.Idx → EReal)
      = headT (m ((c : Thread nD τ).loc main_arg0)) (m ((c : Thread nD τ).loc main_arg3)) (m ((c : Thread nD τ).loc main_arg4)) (m ((c : Thread nD τ).loc main_arg6)) :=
    (Pipeline.withArrays_arr spec0 launch0.win.arr_inj c _ _ 7).trans (Arrays.noun_final m c)
  unfold Pipeline.afterTail₀
  show StableHlo.after hostOps1 _ (Proc.devRef .tc main_v0_1) = _
  after_results
  show transpose S16384x478 [1, 0] (Pipeline.withArrays (cfgs 0).spec c (V0 m c) (fun w => (dats m 0 c).arrAt w (cfgs 0).N) (Proc.devRef .tc main_call0_v6_1)) transposes_S478x16384_S16384x478_1_0 = _
  rw [hw]
  funext i
  obtain ⟨r, p, rfl⟩ : ∃ (r : Fin 16384) (p : Fin 478), i = ix2 r p := ⟨i 0, i 1, eq_ix2 i⟩
  exact Cert.Lib.TransposeSlice.transpose2_apply _ transposes_S478x16384_S16384x478_1_0 p r

/-- Every weakly fair execution of the kernel's program ends with the two results at the masked heads of the
    arguments and the arguments unchanged. -/
theorem run : θ_run defs (onTc (τ := τ) (main (F := Ideal))) ⟨m, fun _ => 0, ρ⟩ fun r => ∀ c : Dev nD,
      r.2.mem ((c : Thread nD τ).loc main_v0_0) = head (m ((c : Thread nD τ).loc main_arg0)) (m ((c : Thread nD τ).loc main_arg1)) (m ((c : Thread nD τ).loc main_arg2)) (m ((c : Thread nD τ).loc main_arg5))
      ∧ r.2.mem ((c : Thread nD τ).loc main_v0_1) = head (m ((c : Thread nD τ).loc main_arg0)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨
      ((h c).2 main_v0_0 (Pipeline.mem_restRefs_of main_v0_0 (by decide) (by decide))).trans (tail_verb m c),
      ((h c).2 main_v0_1 (Pipeline.mem_restRefs_of main_v0_1 (by decide) (by decide))).trans (tail_noun m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.RefHead.lean ====
/-
  The reference's two results are the masked heads.

  The reference adds the bias, spread over the batch, to the product of the features with the weights, and
  keeps that sum where the class's mark, spread over the batch, is set, putting `maskVal` elsewhere.  Read at
  an entry `(r, p)`, operation by operation, that is `headAt` of its arguments.
-/
import proofs.«124433_g46634754900585_cont_8to1_c_1152_52_alg».proof.Proof.Gen.ReferenceIdeal.Read
import proofs.«124433_g46634754900585_cont_8to1_c_1152_52_alg».proof.Proof.MaskedHead

noncomputable section

namespace Cert.ReferenceIdeal.RefHead

open Cert.ReferenceIdeal Idealize.ShloMosaic Idealize.ShloMosaic.ValueIdx Cert.MaskedHead

/-- The reference's verb result is the masked verb head of its arguments: the broadcasts only pick the
    class's bias and mark, the product of features and weights at `(r, p)` is the sum over the 768 features. -/
theorem verb_eq (x0 : (⟨S16384x768, .f32⟩ : BufTy).Contents (Elt Ideal)) (W : (⟨S768x115, .f32⟩ : BufTy).Contents (Elt Ideal))
    (b : (⟨S115, .f32⟩ : BufTy).Contents (Elt Ideal)) (seen : (⟨S115, .i1⟩ : BufTy).Contents (Elt Ideal)) :
    Read.val_main_v9 (F := Ideal) x0 W b seen = head x0 W b seen := by
  funext i
  obtain ⟨r, p, rfl⟩ : ∃ (r : Fin 16384) (p : Fin 115), i = ix2 r p := ⟨i 0, i 1, eq_ix2 i⟩
  rw [Read.val_main_v9_apply, Read.val_main_call0_v1_apply, Read.val_main_v8_apply, Read.val_main_v3_apply, Read.val_main_v0_apply, Read.val_main_v2_apply, Read.val_main_v1_apply, Read.val_main_call0_v2_apply, Read.val_main_call0_v0_apply, Read.val_main_cst_apply]
  have e1 : Read.idx_main_v8 (Read.idx_main_call0_v1 (ix2 r p)) = ix1 p := funext fun a => Fin.ext (by
    match a with
    | ⟨0, _⟩ => rfl)
  have e2 : Read.idx_main_v1 (Read.idx_main_v2 (ix2 r p)) = ix1 p := funext fun a => Fin.ext (by
    match a with
    | ⟨0, _⟩ => rfl)
  have el : ∀ k : Fin 768, Read.lidx_main_v0 (ix2 r p) k = ix2 r k := fun k => funext fun a => Fin.ext (by
    match a with
    | ⟨0, _⟩ => rfl
    | ⟨1, _⟩ => rfl)
  have er : ∀ k : Fin 768, Read.ridx_main_v0 (ix2 r p) k = ix2 k p := fun k => funext fun a => Fin.ext (by
    match a with
    | ⟨0, _⟩ => rfl
    | ⟨1, _⟩ => rfl)
  simp only [e1, e2, el, er]
  rfl

/-- The reference's noun result is the masked noun head of its arguments: the broadcasts only pick the
    class's bias and mark, the product of features and weights at `(r, p)` is the sum over the 768 features. -/
theorem noun_eq (x0 : (⟨S16384x768, .f32⟩ : BufTy).Contents (Elt Ideal)) (W : (⟨S768x478, .f32⟩ : BufTy).Contents (Elt Ideal))
    (b : (⟨S478, .f32⟩ : BufTy).Contents (Elt Ideal)) (seen : (⟨S478, .i1⟩ : BufTy).Contents (Elt Ideal)) :
    Read.val_main_v11 (F := Ideal) x0 W b seen = head x0 W b seen := by
  funext i
  obtain ⟨r, p, rfl⟩ : ∃ (r : Fin 16384) (p : Fin 478), i = ix2 r p := ⟨i 0, i 1, eq_ix2 i⟩
  rw [Read.val_main_v11_apply, Read.val_main_call1_v1_apply, Read.val_main_v10_apply, Read.val_main_v7_apply, Read.val_main_v4_apply, Read.val_main_v6_apply, Read.val_main_v5_apply, Read.val_main_call1_v2_apply, Read.val_main_call1_v0_apply, Read.val_main_cst_0_apply]
  have e1 : Read.idx_main_v10 (Read.idx_main_call1_v1 (ix2 r p)) = ix1 p := funext fun a => Fin.ext (by
    match a with
    | ⟨0, _⟩ => rfl)
  have e2 : Read.idx_main_v5 (Read.idx_main_v6 (ix2 r p)) = ix1 p := funext fun a => Fin.ext (by
    match a with
    | ⟨0, _⟩ => rfl)
  have el : ∀ k : Fin 768, Read.lidx_main_v4 (ix2 r p) k = ix2 r k := fun k => funext fun a => Fin.ext (by
    match a with
    | ⟨0, _⟩ => rfl
    | ⟨1, _⟩ => rfl)
  have er : ∀ k : Fin 768, Read.ridx_main_v4 (ix2 r p) k = ix2 k p := fun k => funext fun a => Fin.ext (by
    match a with
    | ⟨0, _⟩ => rfl
    | ⟨1, _⟩ => rfl)
  simp only [e1, e2, el, er]
  rfl

end Cert.ReferenceIdeal.RefHead

end
-- ==== Proof.lean ====
/-
  A verb head and a noun head over shared features, with unseen classes masked out: the kernel against its reference.

  Both programs compute, for features `x : [16384, 768]`, weights `W : [768, N]`, a bias `b : [N]` and a mark
  `seen : [N]` (N = 115 for verbs, 478 for nouns),

      out[r, c] = x[r, :] · W[:, c] + b[c]   if seen[c],   maskVal   otherwise        (maskVal = f32(-10¹²)).

  The reference does so literally.  The kernel works class-major on four tiles of 4096 rows: it multiplies
  the transposed weights with the transposed tile (operands rounded to bf16, which is no change on the
  extended reals), reads the marks as numbers μ ∈ {0, 1} and stores `logit · μ + (if μ ≠ 0 then b else maskVal)`;
  the host transposes the two class-major results back.  On the extended reals `s · 1 = s`, `s · 0 = 0` and
  `0 + maskVal = maskVal` for every `s`, so the kernel's entry is the reference's for each value of the mark
  (Proof/MaskedHead.lean); products are commuted term by term and the sum runs over the same 768 terms.
  The precondition's finiteness is not used.

  The modules: MaskedHead (the head as a function, the law of one entry), KernelEntry (what the body stores,
  at an entry), HostPrefix (the buffers the host lines before the region wrote), HeadBridge (stored block =
  block of the head), KernelArrays (each output array after the four write-backs), KernelRun (the closing
  transpositions and the run), RefHead (the reference's results are the heads).  The three frames are the
  generated ones (the reference's is its generated run with the results dropped); the idealization rewrote
  nothing, so `preserves` is `True`.
-/
import proofs.«124433_g46634754900585_cont_8to1_c_1152_52_alg».proof.Defs
import proofs.«124433_g46634754900585_cont_8to1_c_1152_52_alg».proof.Proof.Gen.Kernel
import proofs.«124433_g46634754900585_cont_8to1_c_1152_52_alg».proof.Proof.Gen.Kernel.Skeleton
import proofs.«124433_g46634754900585_cont_8to1_c_1152_52_alg».proof.Proof.Gen.Kernel.Launch
import proofs.«124433_g46634754900585_cont_8to1_c_1152_52_alg».proof.Proof.Gen.Kernel.Points
import proofs.«124433_g46634754900585_cont_8to1_c_1152_52_alg».proof.Proof.Gen.Kernel.Frame
import proofs.«124433_g46634754900585_cont_8to1_c_1152_52_alg».proof.Proof.Gen.KernelIdeal
import proofs.«124433_g46634754900585_cont_8to1_c_1152_52_alg».proof.Proof.Gen.KernelIdeal.Skeleton
import proofs.«124433_g46634754900585_cont_8to1_c_1152_52_alg».proof.Proof.Gen.KernelIdeal.Launch
import proofs.«124433_g46634754900585_cont_8to1_c_1152_52_alg».proof.Proof.Gen.KernelIdeal.Points
import proofs.«124433_g46634754900585_cont_8to1_c_1152_52_alg».proof.Proof.Gen.KernelIdeal.Frame
import proofs.«124433_g46634754900585_cont_8to1_c_1152_52_alg».proof.Proof.Gen.ReferenceIdeal
import proofs.«124433_g46634754900585_cont_8to1_c_1152_52_alg».proof.Proof.Gen.Pre_finite_inputs
import proofs.«124433_g46634754900585_cont_8to1_c_1152_52_alg».proof.Proof.Gen.ReferenceIdeal.Run
import proofs.«124433_g46634754900585_cont_8to1_c_1152_52_alg».proof.Proof.Gen.ReferenceIdeal.Read
import proofs.«124433_g46634754900585_cont_8to1_c_1152_52_alg».proof.Proof.KernelRun
import proofs.«124433_g46634754900585_cont_8to1_c_1152_52_alg».proof.Proof.RefHead
import Idealize.ShloMosaic.Adequacy
import Idealize.ShloMosaic.Init

noncomputable section

namespace Cert.Proof

open Idealize.ShloMosaic Idealize.SL.Sem Cert.MaskedHead

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal instance the kernel's two results end at the masked heads of its arguments (KernelRun) and
    the reference's at the masked heads of ITS arguments (its generated run, read by RefHead); the arguments
    agree, so the results are equal. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run (F := Ideal) m' ρ')
  obtain ⟨h9, h11, hrest⟩ := h c
  obtain ⟨a0, a1, a2, a3, a4, a5, a6⟩ := hagree c
  refine ⟨h9.trans ?_, h11.trans ?_, hrest⟩
  · rw [Cert.ReferenceIdeal.Read.val_main_v9_eq, Cert.ReferenceIdeal.RefHead.verb_eq, a0, a1, a2, a5]
  · rw [Cert.ReferenceIdeal.Read.val_main_v11_eq, Cert.ReferenceIdeal.RefHead.noun_eq, a0, a3, a4, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
